-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x320000 : Shape := ⟨2, ![2, 320000]⟩
abbrev S256x64 : Shape := ⟨2, ![256, 64]⟩
abbrev S64 : Shape := ⟨1, ![64]⟩
abbrev S64x4 : Shape := ⟨2, ![64, 4]⟩
abbrev S4 : Shape := ⟨1, ![4]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S64x4 .f32) (main_arg6 : FVec F S4 .f32) (main_arg7 : FVec F S64x4 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64x4 .f32 := Host.absf main_arg5
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S64x4 .f32 := Host.absf main_arg7
  let main_cst_10 : FVec F S_ .f32 := constant S_ .f32 0x7F800000#32
  let main_v30 : FVec F S64x4 .f32 := broadcastInDim S64x4 ![] bcast_S_S64x4 main_cst_10
  let main_v31 : IVec S64x4 1 := cmpf .olt main_v29 main_v30
  let main_c_11 : IVec S_ 1 := constantI S_ 1 1#1
  let main_v32 : IVec S_ 1 := (fun x v => Host.reduce IntOp.andi x v reducesTo_S64x4_S_d0_1 h_S_) main_v31 main_c_11
  let main_v33 : IVec S_ 1 := andi main_v28 main_v32
  main_v33

def fn {F : FTy → Type} [FloatOps F] (main_arg0 : FVec F S100000x256 .f32) (main_arg1 : IVec S2x320000 32) (main_arg2 : FVec F S256x64 .f32) (main_arg3 : FVec F S64 .f32) (main_arg4 : FVec F S256x64 .f32) (main_arg5 : FVec F S64x4 .f32) (main_arg6 : FVec F S4 .f32) (main_arg7 : FVec F S64x4 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_v13 main_v16
-- ==== Kernel.lean ====
abbrev S100000x256 : Shape := ⟨2, ![100000, 256]⟩
abbrev S2x320000 : Shape := ⟨2, ![2, 320000]⟩
abbrev S256x64 : Shape := ⟨2, ![256, 64]⟩
abbrev S64 : Shape := ⟨1, ![64]⟩
abbrev S64x4 : Shape := ⟨2, ![64, 4]⟩
abbrev S4 : Shape := ⟨1, ![4]⟩
abbrev S1x320000 : Shape := ⟨2, ![1, 320000]⟩
abbrev S320000 : Shape := ⟨1, ![320000]⟩
abbrev S_ : Shape := ⟨0, ![]⟩
abbrev S100000 : Shape := ⟨1, ![100000]⟩
abbrev S320000x1 : Shape := ⟨2, ![320000, 1]⟩
abbrev S320000x256 : Shape := ⟨2, ![320000, 256]⟩
abbrev S100000x1 : Shape := ⟨2, ![100000, 1]⟩
abbrev S100000x64 : Shape := ⟨2, ![100000, 64]⟩
abbrev S5000x256 : Shape := ⟨2, ![5000, 256]⟩
abbrev S5000x64 : Shape := ⟨2, ![5000, 64]⟩
abbrev S1x64 : Shape := ⟨2, ![1, 64]⟩
abbrev S5000 : Shape := ⟨1, ![5000]⟩
abbrev S5000x1 : Shape := ⟨2, ![5000, 1]⟩
abbrev S320000x64 : Shape := ⟨2, ![320000, 64]⟩
abbrev S100000x4 : Shape := ⟨2, ![100000, 4]⟩
abbrev S5000x4 : Shape := ⟨2, ![5000, 4]⟩
abbrev S1x4 : Shape := ⟨2, ![1, 4]⟩

abbrev nBuf : Space → Nat
  | .hbm => 58
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x320000, .i32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64x4, .f32⟩
  | .hbm, ⟨6, _⟩ => ⟨S4, .f32⟩
  | .hbm, ⟨7, _⟩ => ⟨S64x4, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .f32⟩
  | .hbm, ⟨13, _⟩ => ⟨S320000, .f32⟩
  | .hbm, ⟨14, _⟩ => ⟨S_, .f32⟩
  | .hbm, ⟨15, _⟩ => ⟨S100000, .f32⟩
  | .hbm, ⟨16, _⟩ => ⟨S320000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S_, .f32⟩
  | .hbm, ⟨34, _⟩ => ⟨S100000x256, .f32⟩
  | .hbm, ⟨35, _⟩ => ⟨S320000x1, .i32⟩
  | .hbm, ⟨36, _⟩ => ⟨S100000x256, .f32⟩
  | .hbm, ⟨37, _⟩ => ⟨S100000x1, .f32⟩
  | .hbm, ⟨38, _⟩ => ⟨S100000x256, .f32⟩
  | .hbm, ⟨39, _⟩ => ⟨S100000x256, .f32⟩
  | .hbm, ⟨40, _⟩ => ⟨S100000x64, .f32⟩
  | .hbm, ⟨41, _⟩ => ⟨S_, .i32⟩
  | .hbm, ⟨42, _⟩ => ⟨S320000, .i32⟩
  | .hbm, ⟨43, _⟩ => ⟨S320000, .i1⟩
  | .hbm, ⟨44, _⟩ => ⟨S_, .i32⟩
  | .hbm, ⟨45, _⟩ => ⟨S320000, .i32⟩
  | .hbm, ⟨46, _⟩ => ⟨S320000, .i32⟩
  | .hbm, ⟨47, _⟩ => ⟨S320000, .i32⟩
  | .hbm, ⟨48, _⟩ => ⟨S320000x1, .i32⟩
  | .hbm, ⟨49, _⟩ => ⟨S320000x64, .f32⟩
  | .hbm, ⟨50, _⟩ => ⟨S_, .f32⟩
  | .hbm, ⟨51, _⟩ => ⟨S100000x64, .f32⟩
  | .hbm, ⟨52, _⟩ => ⟨S320000x1, .i32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S100000x4, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x64, .f32⟩
  | .local _ .vmem, ⟨5, _⟩ => ⟨S64, .f32⟩
  | .local _ .vmem, ⟨6, _⟩ => ⟨S256x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x4, .f32⟩
  | .local _ .vmem, ⟨14, _⟩ => ⟨S4, .f32⟩
  | .local _ .vmem, ⟨15, _⟩ => ⟨S64x4, .f32⟩
  | .local _ .vmem, ⟨16, _⟩ => ⟨S5000x4, .f32⟩
  | .local _ .vmem, ⟨17, _⟩ => ⟨S5000x4, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S100000 : S_.BroadcastsInDim S100000 (![] : Fin 0 → Fin S100000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64x4_S64x4_0_0 : ∀ a, (![0, 0] : Fin 2 → Nat) a + S64x4.size a ≤ S64x4.size a
  h_S64x4 : 0 < S64x4.numel
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  reduces_S5000x4_S5000 : S5000x4.Reduces [1] S5000
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  scatter_S100000_S320000x1_S320000_n_0_0_1_wf : ScatterDims.WF S100000 S320000x1 S320000 [] [0] [0] 1
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S5000x256_S256x64_S5000x64_1_0_0_1_n_n_wf : DotDims.WF S5000x256 S256x64 S5000x64 [1] [0] [0] [1] [] []
  gather_S100000x64_S320000x1_S320000x64_1_0_n_n_0_1_164_wf : GatherDims.WF S100000x64 S320000x1 S320000x64 [1] [0] [] [0] [] 1 ![1, 64]
  scatter_S100000x64_S320000x1_S320000x64_1_0_0_1_wf : ScatterDims.WF S100000x64 S320000x1 S320000x64 [1] [0] [0] 1
  dot_S5000x64_S64x4_S5000x4_1_0_0_1_n_n_wf : DotDims.WF S5000x64 S64x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S100000x256.size a
  hwx0_1 : ∀ i : grid0.Coords, EltTy.bits .f32 = 32 ∨ (Rect.block (s := S100000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4.size a ≤ S64x4.size a
  hwx1_2 : ∀ i : grid1.Coords, EltTy.bits .f32 = 32 ∨ (Rect.block (s := S64x4) S64x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4.size a ≤ S4.size a
  hwx1_3 : ∀ i : grid1.Coords, EltTy.bits .f32 = 32 ∨ (Rect.block (s := S4) S4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x4.size a ≤ S64x4.size a
  hwx1_4 : ∀ i : grid1.Coords, EltTy.bits .f32 = 32 ∨ (Rect.block (s := S64x4) S64x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x4.size a ≤ S100000x4.size a
  hwx1_5 : ∀ i : grid1.Coords, EltTy.bits .f32 = 32 ∨ (Rect.block (s := S100000x4) S5000x4.size (cc1_transform_5 i) (hinb1_5 i)).WholeWords (EltTy.packing .f32)

variable [Facts₀]

def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S320000x1_S320000x64_1_0_n_n_0_1_164 : GatherDims S100000x64 S320000x1 S320000x64 where
  offsetDims := [1]
  collapsedSliceDims := [0]
  operandBatchingDims := []
  startIndicesBatchingDims := []
  startIndexMap := [0]
  indexVectorDim := 1
  sliceSizes := ![1, 64]
  wf := gather_S100000x64_S320000x1_S320000x64_1_0_n_n_0_1_164_wf
def scatter_S100000x64_S320000x1_S320000x64_1_0_0_1 : ScatterDims S100000x64 S320000x1 S320000x64 where
  updateWindowDims := [1]
  insertedWindowDims := [0]
  scatterDimsToOperandDims := [0]
  indexVectorDim := 1
  wf := scatter_S100000x64_S320000x1_S320000x64_1_0_0_1_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf

abbrev win0_0 : Pipeline.Window sig grid0 :=
  Pipeline.Window.ofSpec (Memref.whole main_v24) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x320000 : Shape := ⟨2, ![2, 320000]⟩
abbrev S256x64 : Shape := ⟨2, ![256, 64]⟩
abbrev S64 : Shape := ⟨1, ![64]⟩
abbrev S64x4 : Shape := ⟨2, ![64, 4]⟩
abbrev S4 : Shape := ⟨1, ![4]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S320000x64 : Shape := ⟨2, ![320000, 64]⟩
abbrev S100000x4 : Shape := ⟨2, ![100000, 4]⟩
abbrev S1x4 : Shape := ⟨2, ![1, 4]⟩

abbrev nBuf : Space → Nat
  | .hbm => 97
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x320000, .i32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64x4, .f32⟩
  | .hbm, ⟨6, _⟩ => ⟨S4, .f32⟩
  | .hbm, ⟨7, _⟩ => ⟨S64x4, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .f32⟩
  | .hbm, ⟨22, _⟩ => ⟨S100000x256, .f32⟩
  | .hbm, ⟨23, _⟩ => ⟨S320000x1, .i32⟩
  | .hbm, ⟨24, _⟩ => ⟨S100000x256, .f32⟩
  | .hbm, ⟨25, _⟩ => ⟨S_, .f32⟩
  | .hbm, ⟨26, _⟩ => ⟨S320000, .f32⟩
  | .hbm, ⟨27, _⟩ => ⟨S_, .f32⟩
  | .hbm, ⟨28, _⟩ => ⟨S100000, .f32⟩
  | .hbm, ⟨29, _⟩ => ⟨S320000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x256, .f32⟩
  | .hbm, ⟨36, _⟩ => ⟨S100000x256, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S320000, .i32⟩
  | .hbm, ⟨58, _⟩ => ⟨S320000, .i1⟩
  | .hbm, ⟨59, _⟩ => ⟨S_, .i32⟩
  | .hbm, ⟨60, _⟩ => ⟨S320000, .i32⟩
  | .hbm, ⟨61, _⟩ => ⟨S320000, .i32⟩
  | .hbm, ⟨62, _⟩ => ⟨S320000, .i32⟩
  | .hbm, ⟨63, _⟩ => ⟨S320000x1, .i32⟩
  | .hbm, ⟨64, _⟩ => ⟨S320000x64, .f32⟩
  | .hbm, ⟨65, _⟩ => ⟨S_, .f32⟩
  | .hbm, ⟨66, _⟩ => ⟨S100000x64, .f32⟩
  | .hbm, ⟨67, _⟩ => ⟨S320000x1, .i32⟩
  | .hbm, ⟨68, _⟩ => ⟨S100000x64, .f32⟩
  | .hbm, ⟨69, _⟩ => ⟨S_, .f32⟩
  | .hbm, ⟨70, _⟩ => ⟨S320000, .f32⟩
  | .hbm, ⟨71, _⟩ => ⟨S_, .f32⟩
  | .hbm, ⟨72, _⟩ => ⟨S100000, .f32⟩
  | .hbm, ⟨73, _⟩ => ⟨S320000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S100000x4, .f32⟩
  | .hbm, ⟨82, _⟩ => ⟨S1x4, .f32⟩
  | .hbm, ⟨83, _⟩ => ⟨S100000x4, .f32⟩
  | .hbm, ⟨84, _⟩ => ⟨S100000x4, .f32⟩
  | .hbm, ⟨85, _⟩ => ⟨S100000x4, .f32⟩
  | .hbm, ⟨86, _⟩ => ⟨S100000x4, .f32⟩
  | .hbm, ⟨87, _⟩ => ⟨S100000x4, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S100000x4, .f32⟩
  | .hbm, ⟨96, _⟩ => ⟨S100000x4, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  bcast_S100000x1_S100000x4_0_1 : S100000x1.BroadcastsInDim S100000x4 (![0, 1] : Fin 2 → Fin S100000x4.rank)
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  scatter_S100000_S320000x1_S320000_n_0_0_1_wf : ScatterDims.WF S100000 S320000x1 S320000 [] [0] [0] 1
  dot_S100000x256_S256x64_S100000x64_1_0_0_1_n_n_wf : DotDims.WF S100000x256 S256x64 S100000x64 [1] [0] [0] [1] [] []
  gather_S100000x64_S320000x1_S320000x64_1_0_n_n_0_1_164_wf : GatherDims.WF S100000x64 S320000x1 S320000x64 [1] [0] [] [0] [] 1 ![1, 64]
  scatter_S100000x64_S320000x1_S320000x64_1_0_0_1_wf : ScatterDims.WF S100000x64 S320000x1 S320000x64 [1] [0] [0] 1
  dot_S100000x64_S64x4_S100000x4_1_0_0_1_n_n_wf : DotDims.WF S100000x64 S64x4 S100000x4 [1] [0] [0] [1] [] []

variable [Facts₀]

def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S320000x1_S320000x64_1_0_n_n_0_1_164 : GatherDims S100000x64 S320000x1 S320000x64 where
  offsetDims := [1]
  collapsedSliceDims := [0]
  operandBatchingDims := []
  startIndicesBatchingDims := []
  startIndexMap := [0]
  indexVectorDim := 1
  sliceSizes := ![1, 64]
  wf := gather_S100000x64_S320000x1_S320000x64_1_0_n_n_0_1_164_wf
def scatter_S100000x64_S320000x1_S320000x64_1_0_0_1 : ScatterDims S100000x64 S320000x1 S320000x64 where
  updateWindowDims := [1]
  insertedWindowDims := [0]
  scatterDimsToOperandDims := [0]
  indexVectorDim := 1
  wf := scatter_S100000x64_S320000x1_S320000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.KernelRun.lean ====
/-
  The kernel program's run with its result named.

  @main is four segments: host operations, the first kernel's region, host operations, the second kernel's region.  The
  run leaves every unscoped buffer at the contents of the last segment boundary (W4), so the result buffer ends at W4's
  value there, and each argument ends as launched.
-/
import proofs.«141780_j70849780515474_1_alg».proof.Proof.Gen.KernelIdeal.Frame

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer at the last boundary's contents
    and the arguments as launched. -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.ValueRun

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«141780_j70849780515474_1_alg».proof.Proof.LibDotEntry
import proofs.«141780_j70849780515474_1_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibTwoTermLayer.lean ====
/-
  A dense layer with two matrix terms, read at an entry.

  Entry (p, q) of  a·Wl + x·Wr + b  is  (Σₖ a(p, k)·Wl(k, q)) + (Σₖ x(p, k)·Wr(k, q)) + b(q), with or without a
  final maximum with zero.  At exact arithmetic a TensorCore kernel that multiplies each pair into a zero accumulator,
  adds the two products and adds a [1, n] bias row repeated down the rows has this entry, and so has the host's sum of
  two dot_generals and of the bias laid out by two broadcast_in_dim.  The entry depends on row p of the two left
  factors, column q of the two right factors and the bias at q only.
-/
import Idealize.ShloMosaic.Lib.ValueIdx
import Idealize.ShloMosaic.Lib.ValueLayout
import Idealize.ShloMosaic.Lib.Pipeline.Value
import Idealize.ShloMosaic.PureOps.Ideal.Laws
import proofs.«141780_j70849780515474_1_alg».proof.Proof.LibDenseLayer

noncomputable section

namespace Cert.Lib.TwoTermLayer

open Idealize.ShloMosaic Idealize.ShloMosaic.TcCoe Idealize.SL.Sem Idealize.ShloMosaic.ValueIdx Cert.Lib.DenseLayer

variable {m K n : Nat}

/-- Entry (p, q) before any activation: row p of `a` against column q of `wl`, plus row p of `x` against column q of
    `wr`, plus the bias at q. -/
def pre (a x : FVec Ideal ⟨2, ![m, K]⟩ .f32) (wl wr : FVec Ideal ⟨2, ![K, n]⟩ .f32) (b : Fin n → EReal)
    (p : Fin m) (q : Fin n) : EReal :=
  (∑ k : Fin K, a (ix2 p k) * wl (ix2 k q)) + (∑ k : Fin K, x (ix2 p k) * wr (ix2 k q)) + b q

/-- The entry reads row p of the left factors, column q of the right factors and the bias at q, and nothing else. -/
theorem pre_congr {m' : Nat} (a x : FVec Ideal ⟨2, ![m, K]⟩ .f32) (a' x' : FVec Ideal ⟨2, ![m', K]⟩ .f32)
    (wl wr wl' wr' : FVec Ideal ⟨2, ![K, n]⟩ .f32) (b b' : Fin n → EReal) (p : Fin m) (p' : Fin m') (q q' : Fin n)
    (ha : ∀ k, a (ix2 p k) = a' (ix2 p' k)) (hx : ∀ k, x (ix2 p k) = x' (ix2 p' k))
    (hwl : ∀ k, wl (ix2 k q) = wl' (ix2 k q')) (hwr : ∀ k, wr (ix2 k q) = wr' (ix2 k q')) (hb : b q = b' q') :
    pre a x wl wr b p q = pre a' x' wl' wr' b' p' q' := by
  unfold pre
  simp only [ha, hx, hwl, hwr, hb]

/-- The layer without activation, as one array. -/
def linear (a x : FVec Ideal ⟨2, ![m, K]⟩ .f32) (wl wr : FVec Ideal ⟨2, ![K, n]⟩ .f32) (b : Fin n → EReal) :
    FVec Ideal ⟨2, ![m, n]⟩ .f32 :=
  fun i => pre a x wl wr b (i 0) (i 1)

/-- The layer followed by the maximum with zero, as one array. -/
def rectified (a x : FVec Ideal ⟨2, ![m, K]⟩ .f32) (wl wr : FVec Ideal ⟨2, ![K, n]⟩ .f32) (b : Fin n → EReal) :
    FVec Ideal ⟨2, ![m, n]⟩ .f32 :=
  fun i => max (pre a x wl wr b (i 0) (i 1)) (Ideal.ofBits .f32 0x00000000#32)

/-- Equal factors and pointwise equal biases give the same layer. -/
theorem linear_congr {a a' x x' : FVec Ideal ⟨2, ![m, K]⟩ .f32} {wl wl' wr wr' : FVec Ideal ⟨2, ![K, n]⟩ .f32}
    {b b' : Fin n → EReal} (ha : a = a') (hx : x = x') (hwl : wl = wl') (hwr : wr = wr') (hb : ∀ q, b q = b' q) :
    linear a x wl wr b = linear a' x' wl' wr' b' := by
  obtain rfl : b = b' := funext hb
  subst ha hx hwl hwr
  rfl

/-- The same with the maximum with zero. -/
theorem rectified_congr {a a' x x' : FVec Ideal ⟨2, ![m, K]⟩ .f32} {wl wl' wr wr' : FVec Ideal ⟨2, ![K, n]⟩ .f32}
    {b b' : Fin n → EReal} (ha : a = a') (hx : x = x') (hwl : wl = wl') (hwr : wr = wr') (hb : ∀ q, b q = b' q) :
    rectified a x wl wr b = rectified a' x' wl' wr' b' := by
  obtain rfl : b = b' := funext hb
  subst ha hx hwl hwr
  rfl

variable {D : DotDims ⟨2, ![m, K]⟩ ⟨2, ![K, n]⟩ ⟨2, ![m, n]⟩}

/-- The kernel's form at entry (p, q): two products into zero accumulators (the factors of any float formats), added, plus a
    [1, n] bias row repeated down the rows. -/
theorem kernel_entry (hD : IsMatProduct D) {φ₁ φ₂ : FTy} (a x : FVec Ideal ⟨2, ![m, K]⟩ φ₁)
    (wl wr : FVec Ideal ⟨2, ![K, n]⟩ φ₂) (brow : FVec Ideal ⟨2, ![1, n]⟩ .f32)
    (hbc : (⟨2, ![1, n]⟩ : Shape).Broadcasts ⟨2, ![m, n]⟩) (p : Fin m) (q : Fin n) :
    addf (addf (matmul D none a wl (constant (F := Ideal) ⟨2, ![m, n]⟩ .f32 0x00000000#32))
          (matmul D none x wr (constant (F := Ideal) ⟨2, ![m, n]⟩ .f32 0x00000000#32)))
        (broadcastTo ⟨2, ![m, n]⟩ brow hbc) (ix2 p q)
      = (∑ k : Fin K, a (ix2 p k) * wl (ix2 k q)) + (∑ k : Fin K, x (ix2 p k) * wr (ix2 k q)) + brow (ix2 (0 : Fin 1) q) := by
  rw [addf_apply, addf_apply, matmul_entry hD, matmul_entry hD, broadcastTo_1b_ab_apply]

/-- The host's form at entry (p, q): two dot_generals added, plus the bias laid out as a [1, n] row and then as an
    [m, n] matrix. -/
theorem host_entry (hD : IsMatProduct D) (a x : FVec Ideal ⟨2, ![m, K]⟩ .f32) (wl wr : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (addf (Host.dotGeneral (F := Ideal) D none a wl) (Host.dotGeneral (F := Ideal) D none x wr))
        (broadcastInDim ⟨2, ![m, n]⟩ ![0, 1] h₂ (broadcastInDim ⟨2, ![1, n]⟩ ![1] h₁ b)) (ix2 p q)
      = pre a x wl wr (fun q => b (ix1 q)) p q := by
  rw [addf_apply, addf_apply, dotGeneral_entry hD, dotGeneral_entry hD, host_bias_entry]
  rfl

end Cert.Lib.TwoTermLayer

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.LibColumnLayout.lean ====
/-
  Two layouts by the host's broadcast_in_dim, each read at an entry: a length-a vector laid out as an [a, 1] column
  reads, at (p, u), the vector's entry p; a [1, b] row repeated down the a rows of an [a, b] matrix reads, at (p, c),
  the row's column c. (The companions — an [a, 1] column repeated along its rows, a length-b vector laid out as a
  [1, b] row — are read the same way.)
-/
import Idealize.ShloMosaic.Lib.ValueIdx
import Idealize.ShloMosaic.Lib.Pipeline.Value

noncomputable section

namespace Cert.Lib.ColumnLayout

open Idealize.ShloMosaic Idealize.ShloMosaic.ValueIdx

variable {α : Type}

/-- A length-`a` vector laid out as an `[a, 1]` column (its one axis sent to axis 0) reads, at `(p, u)`, the vector's
    entry `p`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A `[1, b]` row repeated down an `[a, b]` matrix along both axes reads, at `(p, c)`, the row's column `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.Lib.ColumnLayout

end
-- ==== Proof.LibColumnBroadcast.lean ====
/-
  A column repeated along its rows by the host's broadcast_in_dim, read at an entry: an [a, 1] column laid out as an
  [a, b] matrix along both axes reads, at (p, c), the column's row p.
-/
import Idealize.ShloMosaic.Lib.ValueIdx
import Idealize.ShloMosaic.Lib.Pipeline.Value

noncomputable section

namespace Cert.Lib.ColumnBroadcast

open Idealize.ShloMosaic Idealize.ShloMosaic.ValueIdx

variable {α : Type}

/-- An [a, 1] column broadcast to [a, b] along both axes reads, at (p, c), the operand's row p. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.LibUnitRowLayer.lean ====
/-
  One neighbour-mean graph layer with a unit-length readout, read at an entry, at exact arithmetic.

  For a node p the layer forms  o(p, q) = (sum_k a(p, k) * Wl(k, q)) + (sum_k x(p, k) * Wr(k, q)) + b(q)  from the
  aggregated row a(p, .) and the node's own row x(p, .), and returns the row o(p, .) divided by the larger of its
  Euclidean length sqrt(sum_j o(p, j)^2) and a fixed positive floor.  A TensorCore block computes the length by a lane
  sum kept as a unit axis and repeated along the row; the host computes it by a reduce over axis 1 laid out as a column
  and repeated along the row.  Both are the same function of the row.  The two programs also group the three summands
  differently, (A + X) + b against (A + b) + X: addition of extended reals is commutative and associative, so the grouping
  is immaterial, at the infinities too.

  The aggregated row is the neighbour sum M(p, .) divided by d(p) = max(D(p), 1), D the in-degree.  One program divides,
  the other multiplies by the reciprocal 1 / d(p).  Since 1 <= d(p), the divisor is never zero, and away from zero the
  quotient of extended reals IS the product with the inverse: M * (1 * d^-1) = M * d^-1, whatever M and d are.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«141780_j70849780515474_1_alg».proof.Proof.LibTwoTermLayer
import proofs.«141780_j70849780515474_1_alg».proof.Proof.LibRowOps
import proofs.«141780_j70849780515474_1_alg».proof.Proof.LibColumnLayout
import proofs.«141780_j70849780515474_1_alg».proof.Proof.LibColumnBroadcast

noncomputable section

namespace Cert.Sage

open Idealize.ShloMosaic Idealize.ShloMosaic.TcCoe Idealize.SL.Sem Idealize.ShloMosaic.ValueIdx Cert.Lib.DenseLayer

variable {m K n : Nat}

/-! ## The row functions -/

/-- A row divided by the larger of its Euclidean length and the floor. -/
def unitRow (o : Fin n → EReal) (q : Fin n) : EReal :=
  Ideal.div (o q) (max (Ideal.sqrt (∑ j : Fin n, o j * o j)) (Ideal.ofBits .f32 0x2B8CBCCC#32))

theorem unitRow_congr {o o' : Fin n → EReal} (h : ∀ j, o j = o' j) (q : Fin n) : unitRow o q = unitRow o' q := by
  obtain rfl : o = o' := funext h
  rfl

/-- Entry (p, q) before the division: the aggregated row against Wl, the node's own row against Wr, the bias. -/
def lin (a x : FVec Ideal ⟨2, ![m, K]⟩ .f32) (wl wr : FVec Ideal ⟨2, ![K, n]⟩ .f32) (b : FVec Ideal ⟨1, ![n]⟩ .f32)
    (p : Fin m) (q : Fin n) : EReal :=
  (∑ k : Fin K, a (ix2 p k) * wl (ix2 k q)) + (∑ k : Fin K, x (ix2 p k) * wr (ix2 k q)) + b (ix1 q)

/-- The entry reads row p of the two left factors and nothing else of them. -/
theorem lin_congr {m' : Nat} (a x : FVec Ideal ⟨2, ![m, K]⟩ .f32) (a' x' : FVec Ideal ⟨2, ![m', K]⟩ .f32)
    (wl wr wl' wr' : FVec Ideal ⟨2, ![K, n]⟩ .f32) (b b' : FVec Ideal ⟨1, ![n]⟩ .f32) (p : Fin m) (p' : Fin m')
    (ha : ∀ k, a (ix2 p k) = a' (ix2 p' k)) (hx : ∀ k, x (ix2 p k) = x' (ix2 p' k))
    (hwl : wl = wl') (hwr : wr = wr') (hb : b = b') (q : Fin n) :
    lin a x wl wr b p q = lin a' x' wl' wr' b' p' q := by
  subst hwl hwr hb
  unfold lin
  simp only [ha, hx]

/-- The layer as one array: every row made of unit length (or left below the floor). -/
def conv (a x : FVec Ideal ⟨2, ![m, K]⟩ .f32) (wl wr : FVec Ideal ⟨2, ![K, n]⟩ .f32) (b : FVec Ideal ⟨1, ![n]⟩ .f32) :
    FVec Ideal ⟨2, ![m, n]⟩ .f32 :=
  fun i => unitRow (lin a x wl wr b (i 0)) (i 1)

/-- The layer followed by the maximum with zero. -/
def convRelu (a x : FVec Ideal ⟨2, ![m, K]⟩ .f32) (wl wr : FVec Ideal ⟨2, ![K, n]⟩ .f32) (b : FVec Ideal ⟨1, ![n]⟩ .f32) :
    FVec Ideal ⟨2, ![m, n]⟩ .f32 :=
  fun i => max (unitRow (lin a x wl wr b (i 0)) (i 1)) (Ideal.ofBits .f32 0x00000000#32)

/-! ## The division by the row's length, in the two spellings -/

theorem hostDivf_apply {s : Shape} {φ : FTy} (a b : FVec Ideal s φ) (i : s.Idx) :
    Host.divf (F := Ideal) a b i = Ideal.div (a i) (b i) := rfl

theorem hostSqrt_apply {s : Shape} {φ : FTy} (a : FVec Ideal s φ) (i : s.Idx) :
    Host.sqrt (F := Ideal) a i = Ideal.sqrt (a i) := rfl

theorem sqrt_apply {s : Shape} {φ : FTy} (a : FVec Ideal s φ) (i : s.Idx) : sqrt a i = Ideal.sqrt (a i) := rfl

/-- The kernel's: lane sum of the squares, the dropped axis restored as a unit axis, square root, maximum with the
    floor, the column repeated along the row, the quotient. -/
theorem kernel_unit_entry (O : FVec Ideal ⟨2, ![m, n]⟩ .f32)
    (hred : (⟨2, ![m, n]⟩ : Shape).Reduces [1] ⟨1, ![m]⟩) (hφ : FKind.Formats .f32)
    (hacc : (0x00000000#32 : BitVec 32) = FKind.add.neutral .f32 hφ)
    (hsc : (⟨1, ![m]⟩ : Shape).ShapeCasts ⟨2, ![m, 1]⟩) (hbc : (⟨2, ![m, 1]⟩ : Shape).Broadcasts ⟨2, ![m, n]⟩)
    (p : Fin m) (q : Fin n) :
    divf O (broadcastTo ⟨2, ![m, n]⟩
        (maximumf (sqrt (shapeCast ⟨2, ![m, 1]⟩
            (multiReduction (F := Ideal) .add [1] ⟨1, ![m]⟩ (mulf O O) 0x00000000#32 hred hφ hacc) hsc))
          (broadcast ⟨2, ![m, 1]⟩ (Scalar.ofBits (F := Ideal) .f32 0x2B8CBCCC#32))) hbc) (ix2 p q)
      = unitRow (fun j => O (ix2 p j)) q := by
  rw [divf_apply, Cert.Lib.RowOps.broadcastTo_a1_ab_apply, maximumf_apply, sqrt_apply,
    Cert.Lib.RowOps.shapeCast_a_a1_apply, Cert.Lib.RowOps.multiReduction_add_lanes]
  rfl

/-- A scalar laid out over any shape reads the scalar everywhere. -/
theorem scalar_layout_apply {α : Type} {s : Shape} (v : (⟨0, ![]⟩ : Shape).Idx → α)
    (h : (⟨0, ![]⟩ : Shape).BroadcastsInDim s (![] : Fin 0 → Fin s.rank)) (i : s.Idx) :
    broadcastInDim s ![] h v i = v ix0 :=
  broadcastInDim_apply _ h v i ix0 fun ax => ax.elim0

/-- The host's sum over axis 1 of an [a, b] array from a scalar start, read at row p: the start plus the row's sum. -/
theorem host_rowSum {a b : Nat} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => congrArg x ?_)
  funext c; apply Fin.ext
  match c with
  | ⟨0, _⟩ => rfl
  | ⟨1, _⟩ => rfl

/-- The host's: reduce of the squares over axis 1 from zero, laid out as a column, square root, maximum with the floor
    laid out as a column, the column repeated along the row, the quotient. -/
theorem host_unit_entry (O : FVec Ideal ⟨2, ![m, n]⟩ .f32)
    (hred' : (⟨2, ![m, n]⟩ : Shape).ReducesTo [1] ⟨1, ![m]⟩) (hred : (⟨2, ![m, n]⟩ : Shape).Reduces [1] ⟨1, ![m]⟩)
    (h0 : 0 < (⟨0, ![]⟩ : Shape).numel)
    (hcol : (⟨1, ![m]⟩ : Shape).BroadcastsInDim ⟨2, ![m, 1]⟩ (![0] : Fin 1 → Fin 2))
    (hfl : (⟨0, ![]⟩ : Shape).BroadcastsInDim ⟨2, ![m, 1]⟩ (![] : Fin 0 → Fin 2))
    (hrep : (⟨2, ![m, 1]⟩ : Shape).BroadcastsInDim ⟨2, ![m, n]⟩ (![0, 1] : Fin 2 → Fin 2))
    (p : Fin m) (q : Fin n) :
    Host.divf (F := Ideal) O (broadcastInDim ⟨2, ![m, n]⟩ ![0, 1] hrep
        (maximumf (Host.sqrt (F := Ideal) (broadcastInDim ⟨2, ![m, 1]⟩ ![0] hcol
            (Host.reduceAdd (F := Ideal) (mulf O O) (constant (F := Ideal) ⟨0, ![]⟩ .f32 0x00000000#32) hred' h0)))
          (broadcastInDim ⟨2, ![m, 1]⟩ ![] hfl (constant (F := Ideal) ⟨0, ![]⟩ .f32 0x2B8CBCCC#32)))) (ix2 p q)
      = unitRow (fun j => O (ix2 p j)) q := by
  rw [hostDivf_apply, Cert.Lib.ColumnBroadcast.broadcastInDim_a1_ab_apply, maximumf_apply, hostSqrt_apply,
    Cert.Lib.ColumnLayout.broadcastInDim_a_a1_apply, scalar_layout_apply, host_rowSum _ _ hred' hred h0 p,
    constant_apply, constant_apply, Ideal.ofBits_zero_f32, zero_add]
  rfl

/-! ## The mean over the neighbours: dividing is multiplying by the reciprocal -/

/-- Away from a zero divisor the quotient of extended reals is the product with the inverse, so multiplying by the
    reciprocal of a divisor that is at least one is dividing by it. -/
theorem mul_recip (a d : EReal) (hd : (1 : EReal) ≤ d) : a * Ideal.div 1 d = Ideal.div a d := by
  have hne : d ≠ 0 := fun e => absurd (e ▸ hd) (by norm_num)
  unfold Ideal.div
  rw [if_neg hne, if_neg hne, one_mul]

/-- The aggregated rows, as arrays: the neighbour sums times the column of reciprocals 1 / max(D, 1) repeated along
    the rows are the neighbour sums divided by the column max(D, 1) repeated along the rows. -/
theorem mean_eq {a b : Nat} (M : FVec Ideal ⟨2, ![a, b]⟩ .f32) (D : FVec Ideal ⟨1, ![a]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) :
    mulf M (broadcastInDim ⟨2, ![a, b]⟩ ![0, 1] h2 (broadcastInDim ⟨2, ![a, 1]⟩ ![0] h1
        (Host.divf (F := Ideal) (broadcastInDim ⟨1, ![a]⟩ ![] h0 (constant (F := Ideal) ⟨0, ![]⟩ .f32 0x3F800000#32))
          (maximumf D (broadcastInDim ⟨1, ![a]⟩ ![] h0 (constant (F := Ideal) ⟨0, ![]⟩ .f32 0x3F800000#32))))))
      = Host.divf (F := Ideal) M (broadcastInDim ⟨2, ![a, b]⟩ ![0, 1] h2 (broadcastInDim ⟨2, ![a, 1]⟩ ![0] h1
          (maximumf D (broadcastInDim ⟨1, ![a]⟩ ![] h0 (constant (F := Ideal) ⟨0, ![]⟩ .f32 0x3F800000#32))))) := by
  funext i
  obtain ⟨p, k, rfl⟩ : ∃ (p : Fin a) (k : Fin b), i = ix2 p k := ⟨i 0, i 1, eq_ix2 i⟩
  rw [mulf_apply, hostDivf_apply, Cert.Lib.ColumnBroadcast.broadcastInDim_a1_ab_apply,
    Cert.Lib.ColumnBroadcast.broadcastInDim_a1_ab_apply, Cert.Lib.ColumnLayout.broadcastInDim_a_a1_apply,
    Cert.Lib.ColumnLayout.broadcastInDim_a_a1_apply, hostDivf_apply, maximumf_apply, scalar_layout_apply,
    constant_apply, Ideal.ofBits_one_f32]
  exact mul_recip _ _ (le_max_right _ _)

end Cert.Sage

end
-- ==== Proof.KernelBlocks.lean ====
/-
  What one grid point of each kernel computes, read at an entry.

  A point of the first kernel holds 5000 consecutive rows of the aggregated array and of the feature array, and the
  whole of both weight matrices and the bias.  Entry (p, q) of what it stores is the layer's row p made of unit length,
  then the maximum with zero; the second kernel is the same without the maximum, at widths 64 and 4.  A change of float
  format is the identity at exact arithmetic, and casting a block to its own shape changes nothing, so the matrix
  products read the loaded blocks themselves.
-/
import proofs.«141780_j70849780515474_1_alg».proof.Proof.Gen.KernelIdeal.Skeleton
import proofs.«141780_j70849780515474_1_alg».proof.Proof.LibUnitRowLayer

noncomputable section

namespace Cert.KernelIdeal.Blocks

open Cert.KernelIdeal Cert.KernelIdeal.Gen Idealize.ShloMosaic Idealize.ShloMosaic.TcCoe Idealize.SL.Sem
open Idealize.ShloMosaic.ValueIdx Cert.Sage Cert.Lib.DenseLayer

variable [Cert.KernelIdeal.Facts]

/-- Both kernels' products contract the left factor's columns against the right factor's rows. -/
theorem matProduct0 : IsMatProduct dot_S5000x256_S256x64_S5000x64_1_0_0_1_n_n := ⟨rfl, rfl, rfl, rfl, rfl, rfl⟩
theorem matProduct1 : IsMatProduct dot_S5000x64_S64x4_S5000x4_1_0_0_1_n_n := ⟨rfl, rfl, rfl, rfl, rfl, rfl⟩

/-- The first kernel's stored value at entry (p, q): row p of the layer, of unit length, rectified. -/
theorem pay0_entry (v0 v3 : Vec Ideal S5000x256 .f32) (v5 v7 : Vec Ideal S256x64 .f32) (v12 : Vec Ideal S64 .f32)
    (p : Fin 5000) (q : Fin 64) :
    k0_pay1 (F := Ideal) v0 v3 v5 v7 v12 (ix2 p q)
      = max (unitRow (lin (m := 5000) (K := 256) (n := 64) v0 v3 v5 v7 v12 p) q) (Ideal.ofBits .f32 0x00000000#32) := by
  unfold k0_pay1
  rw [shapeCast_self]
  refine (maximumf_apply _ _ (ix2 p q)).trans (congrArg₂ max ?_ rfl)
  refine (kernel_unit_entry _ reduces_S5000x64_S5000 (.inl rfl) rfl shapeCasts_S5000_S5000x1 broadcasts_S5000x1_S5000x64 p q).trans ?_
  refine unitRow_congr (fun j => ?_) q
  refine (Cert.Lib.TwoTermLayer.kernel_entry matProduct0 _ _ _ _ _ broadcasts_S1x64_S5000x64 p j).trans ?_
  exact congrArg (_ + ·) (shapeCast_a_1a_apply v12 shapeCasts_S64_S1x64 0 j)

/-- The second kernel's stored value at entry (p, q): row p of the layer, of unit length. -/
theorem pay1_entry (v0 v3 : Vec Ideal S5000x64 .f32) (v6 v8 : Vec Ideal S64x4 .f32) (v13 : Vec Ideal S4 .f32)
    (p : Fin 5000) (q : Fin 4) :
    k1_pay1 (F := Ideal) v0 v3 v6 v8 v13 (ix2 p q)
      = unitRow (lin (m := 5000) (K := 64) (n := 4) v0 v3 v6 v8 v13 p) q := by
  unfold k1_pay1
  rw [shapeCast_self, shapeCast_self]
  refine (kernel_unit_entry _ reduces_S5000x4_S5000 (.inl rfl) rfl shapeCasts_S5000_S5000x1 broadcasts_S5000x1_S5000x4 p q).trans ?_
  refine unitRow_congr (fun j => ?_) q
  refine (Cert.Lib.TwoTermLayer.kernel_entry matProduct1 _ _ _ _ _ broadcasts_S1x4_S5000x4 p j).trans ?_
  exact congrArg (_ + ·) (shapeCast_a_1a_apply v13 shapeCasts_S4_S1x4 0 j)

end Cert.KernelIdeal.Blocks

end
-- ==== Proof.Region0.lean ====
/-
  The first kernel's result array as one function of the arrays its region is entered with.

  The grid has 20 points; point t holds rows 5000 t ... 5000 t + 4999 of the aggregated array and of the feature array and
  the whole of the weights and the bias, and writes rows 5000 t ... 5000 t + 4999 of the result.  A row of the layer depends
  on the same row of the two left factors only, so what point t writes is block t of the layer of the whole arrays; the
  20 blocks tile the 100000 rows, so the result array is the layer of the whole arrays.
-/
import proofs.«141780_j70849780515474_1_alg».proof.Proof.Gen.KernelIdeal.Frame
import proofs.«141780_j70849780515474_1_alg».proof.Proof.KernelBlocks
import Idealize.ShloMosaic.Lib.Pipeline.Value

noncomputable section

namespace Cert.KernelIdeal.Region0

open Cert.KernelIdeal Cert.KernelIdeal.Gen Cert.KernelIdeal.Blocks Idealize.ShloMosaic Idealize.ShloMosaic.TcCoe Idealize.SL.Sem
open Idealize.ShloMosaic.ValueIdx Cert.Sage
open Idealize.ShloMosaic.Pipeline (Dat)

variable [Cert.KernelIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the two row-blocked inputs move with the output, the weights and the bias stay. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) < 20 ∧ win0_5.index t (1 : Fin 2) = 0 :=
  (by decide +kernel : ∀ t : Fin grid0.N, _)

/-- Every block row of the result is some point's. -/
theorem idx_onto : ∀ q0 : Fin 20, ∃ t : Fin cfg0.N, win0_5.index t (0 : Fin 2) = q0.val ∧ win0_5.index t (1 : Fin 2) = 0 :=
  (by decide +kernel : ∀ q0 : Fin 20, ∃ t : Fin grid0.N, win0_5.index t (0 : Fin 2) = q0.val ∧ win0_5.index t (1 : Fin 2) = 0)

/-- The layer of the arrays the region is entered with. -/
abbrev G (c : Dev nD) : S100000x64.Idx → EReal :=
  convRelu (m := 100000) (K := 256) (n := 64) (V c main_v24) (V c main_arg0) (V c main_arg2) (V c main_arg4) (V c main_arg3)

/-- The aggregated array's block at point t is its rows 5000 t ... 5000 t + 4999. -/
theorem rows_agg (c : Dev nD) (t : Fin cfg0.N) (p : Fin 5000) (k : Fin 256) (r : Fin 100000)
    (hr : r.val = win0_5.index t (0 : Fin 2) * 5000 + p.val) :
    (iblk0 V c 0 t : Vec Ideal S5000x256 .f32) (ix2 p k) = (V c main_v24 : S100000x256.Idx → EReal) (ix2 r k) := by
  obtain ⟨e0, e1, -⟩ := idx_facts t
  unfold iblk0
  rw [View.read_apply]
  refine congrArg (V c main_v24 : S100000x256.Idx → EReal) ?_
  funext a; apply Fin.ext
  match a with
  | ⟨0, _⟩ => show win0_0.index t (0 : Fin 2) * 5000 + 1 * p.val = r.val; omega
  | ⟨1, _⟩ => show win0_0.index t (1 : Fin 2) * 256 + 1 * k.val = k.val; omega

/-- The feature array's block at point t is the same rows of it. -/
theorem rows_own (c : Dev nD) (t : Fin cfg0.N) (p : Fin 5000) (k : Fin 256) (r : Fin 100000)
    (hr : r.val = win0_5.index t (0 : Fin 2) * 5000 + p.val) :
    (iblk0 V c 1 t : Vec Ideal S5000x256 .f32) (ix2 p k) = (V c main_arg0 : S100000x256.Idx → EReal) (ix2 r k) := by
  obtain ⟨-, -, e2, e3, -⟩ := idx_facts t
  unfold iblk0
  rw [View.read_apply]
  refine congrArg (V c main_arg0 : S100000x256.Idx → EReal) ?_
  funext a; apply Fin.ext
  match a with
  | ⟨0, _⟩ => show win0_1.index t (0 : Fin 2) * 5000 + 1 * p.val = r.val; omega
  | ⟨1, _⟩ => show win0_1.index t (1 : Fin 2) * 256 + 1 * k.val = k.val; omega

/-- Each weight window's one block is the whole matrix, at every point. -/
theorem whole_wl (c : Dev nD) (t : Fin cfg0.N) :
    (iblk0 V c 2 t : Vec Ideal S256x64 .f32) = (V c main_arg2 : S256x64.Idx → EReal) := by
  obtain ⟨-, -, -, -, e4, e5, -⟩ := idx_facts t
  funext j
  unfold iblk0
  rw [View.read_apply]
  refine congrArg (V c main_arg2 : S256x64.Idx → EReal) ?_
  funext a; apply Fin.ext
  match a with
  | ⟨0, _⟩ => show win0_2.index t (0 : Fin 2) * 256 + 1 * (j 0).val = (j 0).val; omega
  | ⟨1, _⟩ => show win0_2.index t (1 : Fin 2) * 64 + 1 * (j 1).val = (j 1).val; omega

theorem whole_wr (c : Dev nD) (t : Fin cfg0.N) :
    (iblk0 V c 4 t : Vec Ideal S256x64 .f32) = (V c main_arg4 : S256x64.Idx → EReal) := by
  obtain ⟨-, -, -, -, -, -, -, e7, e8, -⟩ := idx_facts t
  funext j
  unfold iblk0
  rw [View.read_apply]
  refine congrArg (V c main_arg4 : S256x64.Idx → EReal) ?_
  funext a; apply Fin.ext
  match a with
  | ⟨0, _⟩ => show win0_4.index t (0 : Fin 2) * 256 + 1 * (j 0).val = (j 0).val; omega
  | ⟨1, _⟩ => show win0_4.index t (1 : Fin 2) * 64 + 1 * (j 1).val = (j 1).val; omega

/-- The bias window's one block is the whole vector. -/
theorem whole_b (c : Dev nD) (t : Fin cfg0.N) :
    (iblk0 V c 3 t : Vec Ideal S64 .f32) = (V c main_arg3 : S64.Idx → EReal) := by
  obtain ⟨-, -, -, -, -, -, e6, -⟩ := idx_facts t
  funext j
  unfold iblk0
  rw [View.read_apply]
  refine congrArg (V c main_arg3 : S64.Idx → EReal) ?_
  funext a; apply Fin.ext
  match a with
  | ⟨0, _⟩ => show win0_3.index t (0 : Fin 1) * 64 + 1 * (j 0).val = (j 0).val; omega

/-- WHAT POINT t WRITES BACK is block t of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x256) hz2, View.ld_unit_zero (S := S256x64) hz2, View.ld_unit_zero (S := S64) hz1]
  obtain ⟨-, -, -, -, -, -, -, -, -, e9, e10⟩ := idx_facts t
  show (k0_pay1 (F := Ideal) (iblk0 V c 0 t) (iblk0 V c 1 t) (iblk0 V c 2 t) (iblk0 V c 4 t) (iblk0 V c 3 t) : S5000x64.Idx → EReal)
    = fun y => G V c (((cfg0.win 5).blk t).view.emb y)
  funext y
  obtain ⟨p, q, rfl⟩ : ∃ (p : Fin 5000) (q : Fin 64), y = ix2 p q := ⟨y 0, y 1, eq_ix2 y⟩
  refine (pay0_entry (iblk0 V c 0 t) (iblk0 V c 1 t) (iblk0 V c 2 t) (iblk0 V c 4 t) (iblk0 V c 3 t) p q).trans ?_
  have hemb : ((cfg0.win 5).blk t).view.emb (ix2 p q)
      = (ix2 (⟨win0_5.index t (0 : Fin 2) * 5000 + p.val, by have := p.isLt; omega⟩ : Fin 100000) q : S100000x64.Idx) := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 64 + 1 * q.val = q.val; omega
  refine Eq.trans ?_ (congrArg (G V c) hemb.symm)
  show max (unitRow (lin (m := 5000) (K := 256) (n := 64) _ _ _ _ _ p) q) _
    = max (unitRow (lin (m := 100000) (K := 256) (n := 64) _ _ _ _ _ _) q) _
  refine congrArg₂ max (unitRow_congr (fun j => ?_) q) rfl
  exact lin_congr (iblk0 V c 0 t) (iblk0 V c 1 t) (V c main_v24) (V c main_arg0) (iblk0 V c 2 t) (iblk0 V c 4 t) (V c main_arg2) (V c main_arg4)
    (iblk0 V c 3 t) (V c main_arg3) p _ (fun k => rows_agg V c t p k _ rfl) (fun k => rows_own V c t p k _ rfl)
    (whole_wl V c t) (whole_wr V c t) (whole_b V c t) j

/-- An index of the result array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v25).slice (win0_5.rect t)).set ↔ _
  rw [View.set_slice_whole, Rect.mem_set_unit]
  exact Iff.rfl

/-- THE RESULT ARRAY after the region: the layer of the arrays the region is entered with (row i lies in block i / 5000). -/
theorem final (c : Dev nD) : (dat0 V c).arrAt 5 cfg0.N = G V c :=
  (dat0 V c).arrAt_eq_of_cover 5 (G V c) (fun t _ => flushed_eq V c t) fun i => by
    have hi0 : (i 0).val < 100000 := (i 0).isLt
    have hi1 : (i 1).val < 64 := (i 1).isLt
    obtain ⟨t, ht0, ht1⟩ := idx_onto ⟨(i 0).val / 5000, by omega⟩
    have ht0' : win0_5.index t (0 : Fin 2) = (i 0).val / 5000 := ht0
    refine ⟨t, flush0_5 t, ?_⟩
    refine (mem_blk t i).mpr fun a => ?_
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 64 ≤ (i 1).val ∧ (i 1).val < win0_5.index t (1 : Fin 2) * 64 + 64; omega

end Cert.KernelIdeal.Region0

end
-- ==== Proof.Region1.lean ====
/-
  The second kernel's result array as one function of the arrays its region is entered with.

  Again 20 points; point t holds rows 5000 t ... 5000 t + 4999 of the aggregated hidden array and of the hidden array and
  the whole of the second layer's weights and bias, and writes the same rows of the result.  What point t writes is block
  t of the layer of the whole arrays, and the 20 blocks tile the 100000 rows.
-/
import proofs.«141780_j70849780515474_1_alg».proof.Proof.Gen.KernelIdeal.Frame
import proofs.«141780_j70849780515474_1_alg».proof.Proof.KernelBlocks
import Idealize.ShloMosaic.Lib.Pipeline.Value

noncomputable section

namespace Cert.KernelIdeal.Region1

open Cert.KernelIdeal Cert.KernelIdeal.Gen Cert.KernelIdeal.Blocks Idealize.ShloMosaic Idealize.ShloMosaic.TcCoe Idealize.SL.Sem
open Idealize.ShloMosaic.ValueIdx Cert.Sage
open Idealize.ShloMosaic.Pipeline (Dat)

variable [Cert.KernelIdeal.Facts]
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the two row-blocked inputs move with the output, the weights and the bias stay. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) < 20 ∧ win1_5.index t (1 : Fin 2) = 0 :=
  (by decide +kernel : ∀ t : Fin grid1.N, _)

/-- Every block row of the result is some point's. -/
theorem idx_onto : ∀ q0 : Fin 20, ∃ t : Fin cfg1.N, win1_5.index t (0 : Fin 2) = q0.val ∧ win1_5.index t (1 : Fin 2) = 0 :=
  (by decide +kernel : ∀ q0 : Fin 20, ∃ t : Fin grid1.N, win1_5.index t (0 : Fin 2) = q0.val ∧ win1_5.index t (1 : Fin 2) = 0)

/-- The layer of the arrays the region is entered with. -/
abbrev G (c : Dev nD) : S100000x4.Idx → EReal :=
  conv (m := 100000) (K := 64) (n := 4) (V c main_v38) (V c main_v25) (V c main_arg5) (V c main_arg7) (V c main_arg6)

/-- The aggregated array's block at point t is its rows 5000 t ... 5000 t + 4999. -/
theorem rows_agg (c : Dev nD) (t : Fin cfg1.N) (p : Fin 5000) (k : Fin 64) (r : Fin 100000)
    (hr : r.val = win1_5.index t (0 : Fin 2) * 5000 + p.val) :
    (iblk1 V c 0 t : Vec Ideal S5000x64 .f32) (ix2 p k) = (V c main_v38 : S100000x64.Idx → EReal) (ix2 r k) := by
  obtain ⟨e0, e1, -⟩ := idx_facts t
  unfold iblk1
  rw [View.read_apply]
  refine congrArg (V c main_v38 : S100000x64.Idx → EReal) ?_
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- The hidden array's block at point t is the same rows of it. -/
theorem rows_own (c : Dev nD) (t : Fin cfg1.N) (p : Fin 5000) (k : Fin 64) (r : Fin 100000)
    (hr : r.val = win1_5.index t (0 : Fin 2) * 5000 + p.val) :
    (iblk1 V c 1 t : Vec Ideal S5000x64 .f32) (ix2 p k) = (V c main_v25 : S100000x64.Idx → EReal) (ix2 r k) := by
  obtain ⟨-, -, e2, e3, -⟩ := idx_facts t
  unfold iblk1
  rw [View.read_apply]
  refine congrArg (V c main_v25 : S100000x64.Idx → EReal) ?_
  funext a; apply Fin.ext
  match a with
  | ⟨0, _⟩ => show win1_1.index t (0 : Fin 2) * 5000 + 1 * p.val = r.val; omega
  | ⟨1, _⟩ => show win1_1.index t (1 : Fin 2) * 64 + 1 * k.val = k.val; omega

/-- Each weight window's one block is the whole matrix, at every point. -/
theorem whole_wl (c : Dev nD) (t : Fin cfg1.N) :
    (iblk1 V c 2 t : Vec Ideal S64x4 .f32) = (V c main_arg5 : S64x4.Idx → EReal) := by
  obtain ⟨-, -, -, -, e4, e5, -⟩ := idx_facts t
  funext j
  unfold iblk1
  rw [View.read_apply]
  refine congrArg (V c main_arg5 : S64x4.Idx → EReal) ?_
  funext a; apply Fin.ext
  match a with
  | ⟨0, _⟩ => show win1_2.index t (0 : Fin 2) * 64 + 1 * (j 0).val = (j 0).val; omega
  | ⟨1, _⟩ => show win1_2.index t (1 : Fin 2) * 4 + 1 * (j 1).val = (j 1).val; omega

theorem whole_wr (c : Dev nD) (t : Fin cfg1.N) :
    (iblk1 V c 4 t : Vec Ideal S64x4 .f32) = (V c main_arg7 : S64x4.Idx → EReal) := by
  obtain ⟨-, -, -, -, -, -, -, e7, e8, -⟩ := idx_facts t
  funext j
  unfold iblk1
  rw [View.read_apply]
  refine congrArg (V c main_arg7 : S64x4.Idx → EReal) ?_
  funext a; apply Fin.ext
  match a with
  | ⟨0, _⟩ => show win1_4.index t (0 : Fin 2) * 64 + 1 * (j 0).val = (j 0).val; omega
  | ⟨1, _⟩ => show win1_4.index t (1 : Fin 2) * 4 + 1 * (j 1).val = (j 1).val; omega

/-- The bias window's one block is the whole vector. -/
theorem whole_b (c : Dev nD) (t : Fin cfg1.N) :
    (iblk1 V c 3 t : Vec Ideal S4 .f32) = (V c main_arg6 : S4.Idx → EReal) := by
  obtain ⟨-, -, -, -, -, -, e6, -⟩ := idx_facts t
  funext j
  unfold iblk1
  rw [View.read_apply]
  refine congrArg (V c main_arg6 : S4.Idx → EReal) ?_
  funext a; apply Fin.ext
  match a with
  | ⟨0, _⟩ => show win1_3.index t (0 : Fin 1) * 4 + 1 * (j 0).val = (j 0).val; omega

/-- WHAT POINT t WRITES BACK is block t of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64x4) hz2, View.ld_unit_zero (S := S4) hz1]
  obtain ⟨-, -, -, -, -, -, -, -, -, e9, e10⟩ := idx_facts t
  show (k1_pay1 (F := Ideal) (iblk1 V c 0 t) (iblk1 V c 1 t) (iblk1 V c 2 t) (iblk1 V c 4 t) (iblk1 V c 3 t) : S5000x4.Idx → EReal)
    = fun y => G V c (((cfg1.win 5).blk t).view.emb y)
  funext y
  obtain ⟨p, q, rfl⟩ : ∃ (p : Fin 5000) (q : Fin 4), y = ix2 p q := ⟨y 0, y 1, eq_ix2 y⟩
  refine (pay1_entry (iblk1 V c 0 t) (iblk1 V c 1 t) (iblk1 V c 2 t) (iblk1 V c 4 t) (iblk1 V c 3 t) p q).trans ?_
  have hemb : ((cfg1.win 5).blk t).view.emb (ix2 p q)
      = (ix2 (⟨win1_5.index t (0 : Fin 2) * 5000 + p.val, by have := p.isLt; omega⟩ : Fin 100000) q : S100000x4.Idx) := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 4 + 1 * q.val = q.val; omega
  refine Eq.trans ?_ (congrArg (G V c) hemb.symm)
  show unitRow (lin (m := 5000) (K := 64) (n := 4) _ _ _ _ _ p) q
    = unitRow (lin (m := 100000) (K := 64) (n := 4) _ _ _ _ _ _) q
  refine unitRow_congr (fun j => ?_) q
  exact lin_congr (iblk1 V c 0 t) (iblk1 V c 1 t) (V c main_v38) (V c main_v25) (iblk1 V c 2 t) (iblk1 V c 4 t) (V c main_arg5) (V c main_arg7)
    (iblk1 V c 3 t) (V c main_arg6) p _ (fun k => rows_agg V c t p k _ rfl) (fun k => rows_own V c t p k _ rfl)
    (whole_wl V c t) (whole_wr V c t) (whole_b V c t) j

/-- An index of the result array is in point t's block iff each coordinate is in the block's range on its axis. -/
theorem mem_blk (t : Fin cfg1.N) (i : S100000x4.Idx) :
    i ∈ ((cfg1.win 5).blk t).view.set ↔ ∀ a : Fin 2, win1_5.index t a * S5000x4.size a ≤ (i a).val ∧ (i a).val < win1_5.index t a * S5000x4.size a + S5000x4.size a := by
  show i ∈ ((View.whole main_v39).slice (win1_5.rect t)).set ↔ _
  rw [View.set_slice_whole, Rect.mem_set_unit]
  exact Iff.rfl

/-- THE RESULT ARRAY after the region: the layer of the arrays the region is entered with (row i lies in block i / 5000). -/
theorem final (c : Dev nD) : (dat1 V c).arrAt 5 cfg1.N = G V c :=
  (dat1 V c).arrAt_eq_of_cover 5 (G V c) (fun t _ => flushed_eq V c t) fun i => by
    have hi0 : (i 0).val < 100000 := (i 0).isLt
    have hi1 : (i 1).val < 4 := (i 1).isLt
    obtain ⟨t, ht0, ht1⟩ := idx_onto ⟨(i 0).val / 5000, by omega⟩
    have ht0' : win1_5.index t (0 : Fin 2) = (i 0).val / 5000 := ht0
    refine ⟨t, flush1_5 t, ?_⟩
    refine (mem_blk t i).mpr fun a => ?_
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 4 ≤ (i 1).val ∧ (i 1).val < win1_5.index t (1 : Fin 2) * 4 + 4; omega

end Cert.KernelIdeal.Region1

end
-- ==== Proof.RefStages.lean ====
/-
  The reference's two layers, each as the layer function of its aggregated input.

  The reference forms (a . Wl + b) + x . Wr where the kernel forms (a . Wl + x . Wr) + b; the sums of extended reals are
  regrouped by commutativity and associativity of addition, which hold at the infinities too.  Its division by the row's
  length is the host's spelling of the same function of the row, and its rectifier is the maximum with zero laid out over
  the array.
-/
import proofs.«141780_j70849780515474_1_alg».proof.Proof.Gen.ReferenceIdeal.Read
import proofs.«141780_j70849780515474_1_alg».proof.Proof.LibUnitRowLayer

noncomputable section

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Sage Cert.Lib.DenseLayer

/-- Both of the reference's products contract the left factor's columns against the right factor's rows. -/
theorem matProduct1 : IsMatProduct dot_S100000x256_S256x64_S100000x64_1_0_0_1_n_n := ⟨rfl, rfl, rfl, rfl, rfl, rfl⟩
theorem matProduct2 : IsMatProduct dot_S100000x64_S64x4_S100000x4_1_0_0_1_n_n := ⟨rfl, rfl, rfl, rfl, rfl, rfl⟩

variable (x0 : (⟨S100000x256, .f32⟩ : BufTy).Contents (Elt Ideal)) (x1 : (⟨S2x320000, .i32⟩ : BufTy).Contents (Elt Ideal))
  (x2 : (⟨S256x64, .f32⟩ : BufTy).Contents (Elt Ideal)) (x3 : (⟨S64, .f32⟩ : BufTy).Contents (Elt Ideal))
  (x4 : (⟨S256x64, .f32⟩ : BufTy).Contents (Elt Ideal)) (x5 : (⟨S64x4, .f32⟩ : BufTy).Contents (Elt Ideal))
  (x6 : (⟨S4, .f32⟩ : BufTy).Contents (Elt Ideal)) (x7 : (⟨S64x4, .f32⟩ : BufTy).Contents (Elt Ideal))

/-- The first layer before the division, at an entry: the host's grouping regrouped. -/
theorem pre1_entry (p : Fin 100000) (j : Fin 64) :
    val_main_v28 (F := Ideal) x0 x1 x2 x3 x4 (ix2 p j)
      = lin (m := 100000) (K := 256) (n := 64) (val_main_v22 (F := Ideal) x0 x1) x0 x2 x4 x3 p j := by
  unfold val_main_v28 val_main_v27 val_main_v26 val_main_v25 val_main_v24 val_main_v23
  rw [addf_apply, addf_apply, dotGeneral_entry matProduct1, host_bias_entry, dotGeneral_entry matProduct1]
  unfold lin
  exact add_right_comm _ _ _

/-- The first layer: the hidden array is the rectified unit-length layer of the aggregated features and the features. -/
theorem layer1 :
    val_main_v37 (F := Ideal) x0 x1 x2 x3 x4
      = convRelu (m := 100000) (K := 256) (n := 64) (val_main_v22 (F := Ideal) x0 x1) x0 x2 x4 x3 := by
  funext i
  obtain ⟨p, q, rfl⟩ : ∃ (p : Fin 100000) (q : Fin 64), i = ix2 p q := ⟨i 0, i 1, eq_ix2 i⟩
  unfold val_main_v37 val_main_call0_v0 val_main_call0_cst val_main_v36 val_main_v35 val_main_v34 val_main_v33 val_main_cst_5
    val_main_v32 val_main_v31 val_main_v30 val_main_cst_4 val_main_v29
  rw [maximumf_apply, scalar_layout_apply, constant_apply]
  refine congrArg₂ max ?_ rfl
  refine (host_unit_entry (val_main_v28 (F := Ideal) x0 x1 x2 x3 x4) reducesTo_S100000x64_S100000_d1 (by decide) h_S_
    bcast_S100000_S100000x1_0 bcast_S_S100000x1 bcast_S100000x1_S100000x64_0_1 p q).trans ?_
  exact unitRow_congr (fun j => pre1_entry x0 x1 x2 x3 x4 p j) q

/-- The second layer before the division, at an entry. -/
theorem pre2_entry (p : Fin 100000) (j : Fin 4) :
    val_main_v62 (F := Ideal) x0 x1 x2 x3 x4 x5 x6 x7 (ix2 p j)
      = lin (m := 100000) (K := 64) (n := 4) (val_main_v56 (F := Ideal) x0 x1 x2 x3 x4) (val_main_v37 (F := Ideal) x0 x1 x2 x3 x4)
          x5 x7 x6 p j := by
  unfold val_main_v62 val_main_v61 val_main_v60 val_main_v59 val_main_v58 val_main_v57
  rw [addf_apply, addf_apply, dotGeneral_entry matProduct2, host_bias_entry, dotGeneral_entry matProduct2]
  unfold lin
  exact add_right_comm _ _ _

/-- The second layer: the result is the unit-length layer of the aggregated hidden array and the hidden array. -/
theorem layer2 :
    val_main_v70 (F := Ideal) x0 x1 x2 x3 x4 x5 x6 x7
      = conv (m := 100000) (K := 64) (n := 4) (val_main_v56 (F := Ideal) x0 x1 x2 x3 x4) (val_main_v37 (F := Ideal) x0 x1 x2 x3 x4)
          x5 x7 x6 := by
  funext i
  obtain ⟨p, q, rfl⟩ : ∃ (p : Fin 100000) (q : Fin 4), i = ix2 p q := ⟨i 0, i 1, eq_ix2 i⟩
  unfold val_main_v70 val_main_v69 val_main_v68 val_main_v67 val_main_cst_13 val_main_v66 val_main_v65 val_main_v64 val_main_cst_12
    val_main_v63
  refine (host_unit_entry (val_main_v62 (F := Ideal) x0 x1 x2 x3 x4 x5 x6 x7) reducesTo_S100000x4_S100000_d1 (by decide) h_S_
    bcast_S100000_S100000x1_0 bcast_S_S100000x1 bcast_S100000x1_S100000x4_0_1 p q).trans ?_
  exact unitRow_congr (fun j => pre2_entry x0 x1 x2 x3 x4 x5 x6 x7 p j) q

end Cert.ReferenceIdeal.Stages

end
-- ==== Proof.KernelValue.lean ====
/-
  The kernel program's result as the reference's function of the arguments.

  Walking @main's segments from the launch: the host operations before the first kernel leave the aggregated features,
  neighbour sums times the reciprocal of max(degree, 1), which are the neighbour sums divided by max(degree, 1); the
  first kernel's region leaves the rectified unit-length layer of them and the features, the hidden array; the host
  operations between the kernels leave the aggregated hidden array in the same way; the second kernel's region leaves
  the unit-length layer of that and the hidden array.  Each of these is the reference's own stage of the same name, so
  the result buffer ends at the reference's last stage of the arguments.
-/
import proofs.«141780_j70849780515474_1_alg».proof.Proof.KernelRun
import proofs.«141780_j70849780515474_1_alg».proof.Proof.Region0
import proofs.«141780_j70849780515474_1_alg».proof.Proof.Region1
import proofs.«141780_j70849780515474_1_alg».proof.Proof.RefStages
import Idealize.ShloMosaic.Lib.StableHlo.Run

noncomputable section

namespace Cert.KernelIdeal.Result

open Cert.KernelIdeal Cert.KernelIdeal.Gen
open Idealize.ShloMosaic Idealize.ShloMosaic.TcCoe Idealize.SL.Sem Idealize.ShloMosaic.StableHlo
open Cert.Sage
open Cert.ReferenceIdeal.Read (val_main_v22 val_main_v37 val_main_v56 val_main_v70)

variable (m : (ℓ : Loc nD τ sig) → Buf (Elt Ideal) ℓ) (ρ : Dev nD → PrngReg)

/-! ## The arguments as the first region finds them -/

theorem V1_arg0 (c : Dev nD) : V1 m ρ c main_arg0 = m ((c.tc : Thread nD τ).loc main_arg0) := by
  dsimp only [V1, W1, hostOps0]; after_results_simp <;> rfl
theorem V1_arg2 (c : Dev nD) : V1 m ρ c main_arg2 = m ((c.tc : Thread nD τ).loc main_arg2) := by
  dsimp only [V1, W1, hostOps0]; after_results_simp <;> rfl
theorem V1_arg3 (c : Dev nD) : V1 m ρ c main_arg3 = m ((c.tc : Thread nD τ).loc main_arg3) := by
  dsimp only [V1, W1, hostOps0]; after_results_simp <;> rfl
theorem V1_arg4 (c : Dev nD) : V1 m ρ c main_arg4 = m ((c.tc : Thread nD τ).loc main_arg4) := by
  dsimp only [V1, W1, hostOps0]; after_results_simp <;> rfl

/-- The aggregated features the first region is entered with are the reference's: neighbour sums over max(degree, 1). -/
theorem agg1 (c : Dev nD) :
    V1 m ρ c main_v24
      = val_main_v22 (F := Ideal) (m ((c.tc : Thread nD τ).loc main_arg0)) (m ((c.tc : Thread nD τ).loc main_arg1)) := by
  dsimp only [V1, W1, hostOps0]
  after_results_simp
  refine (mean_eq _ _ _ _ _).trans ?_
  rfl

/-- The hidden array after the first region is the reference's hidden array. -/
theorem hidden (c : Dev nD) :
    W2 m ρ c (Proc.devRef .tc main_v25)
      = val_main_v37 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W2_arr m ρ c 5).trans ((Cert.KernelIdeal.Region0.final (V1 m ρ) c).trans ?_)
  show convRelu (m := 100000) (K := 256) (n := 64) (V1 m ρ c main_v24) (V1 m ρ c main_arg0) (V1 m ρ c main_arg2) (V1 m ρ c main_arg4)
    (V1 m ρ c main_arg3) = _
  rw [agg1, V1_arg0, V1_arg2, V1_arg3, V1_arg4]
  exact (Cert.ReferenceIdeal.Stages.layer1 _ _ _ _ _).symm

/-! ## What the second region is entered with -/

/-- The aggregated hidden array is the reference's: the neighbour sums of the hidden array over max(degree, 1). -/
theorem agg2 (c : Dev nD) :
    V3 m ρ c main_v38
      = val_main_v56 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  dsimp only [V3, W3, hostOps1]
  after_results_simp
  rw [hidden, W2_of_ne m ρ c main_v1 (by decide), W2_of_ne m ρ c main_v3 (by decide), W2_of_ne m ρ c main_v11 (by decide)]
  dsimp only [W1, hostOps0]
  after_results_simp
  refine (mean_eq _ _ _ _ _).trans ?_
  rfl

/-- No host operation between the kernels writes the hidden array. -/
theorem V3_hidden (c : Dev nD) :
    V3 m ρ c main_v25
      = val_main_v37 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  dsimp only [V3, W3, hostOps1]
  after_results
  exact hidden m ρ c

theorem V3_arg5 (c : Dev nD) : V3 m ρ c main_arg5 = m ((c.tc : Thread nD τ).loc main_arg5) := by
  dsimp only [V3, W3, hostOps1]
  after_results
  rw [W2_of_ne m ρ c main_arg5 (by decide)]
  dsimp only [W1, hostOps0]; after_results_simp <;> rfl
theorem V3_arg6 (c : Dev nD) : V3 m ρ c main_arg6 = m ((c.tc : Thread nD τ).loc main_arg6) := by
  dsimp only [V3, W3, hostOps1]
  after_results
  rw [W2_of_ne m ρ c main_arg6 (by decide)]
  dsimp only [W1, hostOps0]; after_results_simp <;> rfl
theorem V3_arg7 (c : Dev nD) : V3 m ρ c main_arg7 = m ((c.tc : Thread nD τ).loc main_arg7) := by
  dsimp only [V3, W3, hostOps1]
  after_results
  rw [W2_of_ne m ρ c main_arg7 (by decide)]
  dsimp only [W1, hostOps0]; after_results_simp <;> rfl

/-! ## The result -/

/-- The result buffer at the last boundary is the reference's last stage of the arguments. -/
theorem result (c : Dev nD) :
    W4 m ρ c (Proc.devRef .tc main_v39)
      = val_main_v70 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 5).trans ((Cert.KernelIdeal.Region1.final (V3 m ρ) c).trans ?_)
  show conv (m := 100000) (K := 64) (n := 4) (V3 m ρ c main_v38) (V3 m ρ c main_v25) (V3 m ρ c main_arg5) (V3 m ρ c main_arg7)
    (V3 m ρ c main_arg6) = _
  rw [agg2, V3_hidden, V3_arg5, V3_arg6, V3_arg7]
  exact (Cert.ReferenceIdeal.Stages.layer2 _ _ _ _ _ _ _ _).symm

/-- The kernel program's run with its result at the reference's function of the arguments, the arguments unchanged. -/
theorem run : θ_run defs (onTc (τ := τ) (main (F := Ideal))) ⟨m, fun _ => 0, ρ⟩ (fun r => ∀ c : Dev nD,
      r.2.mem ((c.tc : Thread nD τ).loc main_v39)
        = val_main_v70 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩)
    (Cert.KernelIdeal.ValueRun.run_result m ρ)

end Cert.KernelIdeal.Result

end
-- ==== Proof.lean ====
/-
  A two-layer neighbour-mean graph network with unit-length rows, as two pipelined TensorCore kernels among host
  operations, against its jnp reference, on the extended reals.

  Each layer aggregates every node's in-neighbours' rows by a gather and an accumulating scatter, divides the sums by
  max(in-degree, 1), forms  agg . Wl + x . Wr + b, and divides every row by the larger of its Euclidean length and a floor;
  the first layer ends with the maximum with zero.  The kernel program multiplies the neighbour sums by the reciprocal of
  max(degree, 1) where the reference divides by it: the divisor is at least one, never zero, and away from zero the
  quotient of extended reals is the product with the inverse.  The kernel adds the bias after both matrix products, the
  reference between them: addition of extended reals is commutative and associative.  A kernel's lane sum, matrix product
  into a zero accumulator, square root, maximum and quotient are the host's reduce, dot_general, square root, maximum and
  quotient as functions, and a change of float format is the identity.  Each kernel's grid of 20 points tiles the 100000
  rows, and a row of a layer depends on that row of its two inputs only, so each result array is the layer of the whole
  arrays.  None of this uses the finiteness of the inputs.

  The frames of the two kernel programs and the reference's run are the generated ones; the ideal pass rewrote nothing,
  so the kernel's idealization is its own text read at exact arithmetic.
-/
import proofs.«141780_j70849780515474_1_alg».proof.Defs
import proofs.«141780_j70849780515474_1_alg».proof.Proof.Gen.Kernel
import proofs.«141780_j70849780515474_1_alg».proof.Proof.Gen.Kernel.Skeleton
import proofs.«141780_j70849780515474_1_alg».proof.Proof.Gen.Kernel.Launch
import proofs.«141780_j70849780515474_1_alg».proof.Proof.Gen.Kernel.Points
import proofs.«141780_j70849780515474_1_alg».proof.Proof.Gen.Kernel.Frame
import proofs.«141780_j70849780515474_1_alg».proof.Proof.Gen.KernelIdeal
import proofs.«141780_j70849780515474_1_alg».proof.Proof.Gen.KernelIdeal.Skeleton
import proofs.«141780_j70849780515474_1_alg».proof.Proof.Gen.KernelIdeal.Launch
import proofs.«141780_j70849780515474_1_alg».proof.Proof.Gen.KernelIdeal.Points
import proofs.«141780_j70849780515474_1_alg».proof.Proof.Gen.KernelIdeal.Frame
import proofs.«141780_j70849780515474_1_alg».proof.Proof.Gen.ReferenceIdeal
import proofs.«141780_j70849780515474_1_alg».proof.Proof.Gen.ReferenceIdeal.Run
import proofs.«141780_j70849780515474_1_alg».proof.Proof.Gen.ReferenceIdeal.Read
import proofs.«141780_j70849780515474_1_alg».proof.Proof.Gen.Pre_finite_inputs
import proofs.«141780_j70849780515474_1_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the same program read at exact arithmetic. -/
theorem frame_kernelIdeal : Cert.frame_KernelIdeal := fun m ρ _ => Cert.KernelIdeal.Gen.frame m ρ

/-- The reference is a line of host operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at the reference's last stage of the
    arguments: the kernel program by walking its four segments, the reference by its run. -/
theorem algebraic : Cert.algebraic_KernelIdeal_ReferenceIdeal := by
  intro m ρ m' ρ' _ hagree
  refine ⟨fun c => Cert.ReferenceIdeal.Read.val_main_v70 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v70_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
